-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x40 .f32) (main_arg6 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg5
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x64 : Shape := ⟨2, ![10000, 64]⟩
abbrev S10000x1 : Shape := ⟨2, ![10000, 1]⟩
abbrev S1600000x64 : Shape := ⟨2, ![1600000, 64]⟩
abbrev S1x64 : Shape := ⟨2, ![1, 64]⟩
abbrev S100000x40 : Shape := ⟨2, ![100000, 40]⟩
abbrev S10000x40 : Shape := ⟨2, ![10000, 40]⟩
abbrev S1600000x40 : Shape := ⟨2, ![1600000, 40]⟩
abbrev S1x40 : Shape := ⟨2, ![1, 40]⟩

abbrev nBuf : Space → Nat
  | .hbm => 63
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x1, .f32⟩
  | .hbm, ⟨43, _⟩ => ⟨S1x64, .f32⟩
  | .hbm, ⟨44, _⟩ => ⟨S100000x64, .f32⟩
  | .hbm, ⟨45, _⟩ => ⟨S100000x1, .f32⟩
  | .hbm, ⟨46, _⟩ => ⟨S100000x40, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x40, .f32⟩
  | .hbm, ⟨56, _⟩ => ⟨S_, .f32⟩
  | .hbm, ⟨57, _⟩ => ⟨S100000x40, .f32⟩
  | .hbm, ⟨58, _⟩ => ⟨S1600000x1, .i32⟩
  | .hbm, ⟨59, _⟩ => ⟨S100000x40, .f32⟩
  | .hbm, ⟨60, _⟩ => ⟨S100000x1, .f32⟩
  | .hbm, ⟨61, _⟩ => ⟨S1x40, .f32⟩
  | .hbm, ⟨62, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S64x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S64x40, .f32⟩
  | .local _ .vmem, ⟨19, _⟩ => ⟨S10000x40, .f32⟩
  | .local _ .vmem, ⟨20, _⟩ => ⟨S10000x40, .f32⟩
  | .local _ .vmem, ⟨21, _⟩ => ⟨S10000x40, .f32⟩
  | .local _ .vmem, ⟨22, _⟩ => ⟨S10000x40, .f32⟩
  | .local _ .vmem, ⟨23, _⟩ => ⟨S10000x1, .f32⟩
  | .local _ .vmem, ⟨24, _⟩ => ⟨S10000x1, .f32⟩
  | .local _ .vmem, ⟨25, _⟩ => ⟨S1x40, .f32⟩
  | .local _ .vmem, ⟨26, _⟩ => ⟨S10000x40, .f32⟩
  | .local _ .vmem, ⟨27, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  broadcasts_S10000x1_S10000x40 : S10000x1.Broadcasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x40_S10000x40_1_0_0_1_n_n_wf : DotDims.WF S10000x64 S64x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x40.size a ≤ S64x40.size a
  hwx2_2 : ∀ i : grid2.Coords, EltTy.bits .f32 = 32 ∨ (Rect.block (s := S64x40) S64x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x40.size a ≤ S100000x40.size a
  hwx2_3 : ∀ i : grid2.Coords, EltTy.bits .f32 = 32 ∨ (Rect.block (s := S100000x40) S10000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x40.size a ≤ S100000x40.size a
  hwx3_3 : ∀ i : grid3.Coords, EltTy.bits .f32 = 32 ∨ (Rect.block (s := S100000x40) S10000x40.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S10000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S10000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S100000, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x40, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x40, .f32⟩
  | .hbm, ⟨89, _⟩ => ⟨S_, .f32⟩
  | .hbm, ⟨90, _⟩ => ⟨S100000x40, .f32⟩
  | .hbm, ⟨91, _⟩ => ⟨S1600000x1, .i32⟩
  | .hbm, ⟨92, _⟩ => ⟨S100000x40, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S1x40, .f32⟩
  | .hbm, ⟨98, _⟩ => ⟨S100000x40, .f32⟩
  | .hbm, ⟨99, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_cst : Ref sig .tc := ⟨.hbm, 52, rfl⟩
abbrev main_call2_v0 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_call3_v0 : Ref sig .tc := ⟨.hbm, 62, rfl⟩
abbrev main_call3_v1 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_13 : Ref sig .tc := ⟨.hbm, 80, rfl⟩
abbrev main_v48 : Ref sig .tc := ⟨.hbm, 81, rfl⟩
abbrev main_v49 : Ref sig .tc := ⟨.hbm, 82, rfl⟩
abbrev main_c_14 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_15 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The kernel program's run with its result named.

  The program is twelve segments: stretches of host operations and four row-blocked regions. The contents of every
  buffer at each boundary are a fold through the segments from the launch memory (`W0` … `W12` of the generated
  frame module); the run ends with every unscoped buffer at the last boundary's contents. Read at the result buffer
  this says what the result array holds, beside the seven arguments ending as launched.
-/
import proofs.«110410_j82197084110895_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of its buffer and the arguments end as launched. -/
theorem run : θ_run defs (onTc (τ := τ) (main (F := F))) ⟨m, fun _ => 0, ρ⟩ (fun r => ∀ c : Dev nD,
      r.2.mem ((c.tc : Thread nD τ).loc main_v39) = W12 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v39 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Named

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.LibGraphLayer.lean ====
/-
  One graph-convolution layer over the extended reals, entry by entry.

  A layer of the network takes node features `x` (one row per node), the nodes' degrees `d` (a positive count per
  node; nothing below depends on that) and a weight matrix `W`, and works in two halves around a sum over the edges:
    * `project x d W`: row `r` of `x` is multiplied by `d r ^ (-1/2)` and then by `W`:
      entry `(r, o)` is `Σ_c (x (r, c) · rsqrt (d r)) · W (c, o)`;
    * `normalize a d b`: row `r` of the edge sums `a` is multiplied by `d r ^ (-1/2)` and the bias `b` is added:
      entry `(r, o)` is `a (r, o) · rsqrt (d r) + b o`;
    * `rectify a`: the greater of each entry and zero.
  The same three functions are stated with the degrees laid out as a column `[N, 1]` and the bias as a row `[1, k]`
  (`projectCol`, `normalizeCol`): that is how a row-blocked kernel is handed them, and a column or row that is a
  reshape of a vector gives back the vector form (`projectCol_reshape`, `normalizeCol_reshape`).
  The block lemmas read what a kernel computes on a block of `R` rows — the products on the matrix unit with both
  operands narrowed to bf16 (no change of value over the extended reals), the column and the row copied along the
  block by `vector.broadcast` — at an entry `(q, o)` of the block: the same expressions of the block's rows.
-/
import Idealize.ShloMosaic.PureOps.Ideal
import Idealize.ShloMosaic.PureOps.Ideal.Laws
import Idealize.ShloMosaic.Lib.ValueIdx
import Idealize.ShloMosaic.Lib.Pipeline.Value
import proofs.«110410_j82197084110895_1_alg».proof.Proof.LibColumnForms
import proofs.«110410_j82197084110895_1_alg».proof.Proof.LibPlainMatmul
import proofs.«110410_j82197084110895_1_alg».proof.Proof.LibRowLayout

noncomputable section

namespace Cert.GraphLayer

open Idealize.ShloMosaic Idealize.ShloMosaic.ValueIdx

/-- A matrix `[a, b]` and a vector `[a]` of extended reals. -/
abbrev Mat (a b : ℕ) : Type := (⟨2, ![a, b]⟩ : Shape).Idx → EReal
abbrev Vect (a : ℕ) : Type := (⟨1, ![a]⟩ : Shape).Idx → EReal

/-- The zero of the f32 format, as the extended real it denotes. -/
abbrev zeroWord : EReal := Ideal.ofBits .f32 0x00000000#32

/-! ## The layer's halves -/

/-- Rows scaled by the inverse square root of the row's degree, then multiplied by the weights. -/
def project {N n k : ℕ} (x : Mat N n) (d : Vect N) (W : Mat n k) : Mat N k :=
  fun i => ∑ c : Fin n, (x (ix2 (i 0) c) * Ideal.rsqrt (d (ix1 (i 0)))) * W (ix2 c (i 1))

/-- The same with the degrees as a column. -/
def projectCol {N n k : ℕ} (x : Mat N n) (d : Mat N 1) (W : Mat n k) : Mat N k :=
  fun i => ∑ c : Fin n, (x (ix2 (i 0) c) * Ideal.rsqrt (d (ix2 (i 0) (0 : Fin 1)))) * W (ix2 c (i 1))

/-- Rows scaled by the inverse square root of the row's degree, plus the bias. -/
def normalize {N k : ℕ} (a : Mat N k) (d : Vect N) (b : Vect k) : Mat N k :=
  fun i => a i * Ideal.rsqrt (d (ix1 (i 0))) + b (ix1 (i 1))

/-- The same with the degrees as a column and the bias as a row. -/
def normalizeCol {N k : ℕ} (a : Mat N k) (d : Mat N 1) (b : Mat 1 k) : Mat N k :=
  fun i => a i * Ideal.rsqrt (d (ix2 (i 0) (0 : Fin 1))) + b (ix2 (0 : Fin 1) (i 1))

/-- The greater of each entry and zero. -/
def rectify {N k : ℕ} (a : Mat N k) : Mat N k := fun i => max (a i) zeroWord

/-! ## The halves at an entry -/

theorem project_apply {N n k : ℕ} (x : Mat N n) (d : Vect N) (W : Mat n k) (r : Fin N) (o : Fin k) :
    project x d W (ix2 r o) = ∑ c : Fin n, (x (ix2 r c) * Ideal.rsqrt (d (ix1 r))) * W (ix2 c o) := rfl

theorem normalize_apply {N k : ℕ} (a : Mat N k) (d : Vect N) (b : Vect k) (r : Fin N) (o : Fin k) :
    normalize a d b (ix2 r o) = a (ix2 r o) * Ideal.rsqrt (d (ix1 r)) + b (ix1 o) := rfl

theorem rectify_apply {N k : ℕ} (a : Mat N k) (i : (⟨2, ![N, k]⟩ : Shape).Idx) : rectify a i = max (a i) zeroWord := rfl

/-! ## A column or a row that is a reshape of a vector -/

/-- A vector `[n]` laid out as a one-row matrix `[1, n]` reads, at `(z, k)`, the vector at `k`. -/
theorem shapeCast_n_1n_apply {α : Type} {n : ℕ} (b : (⟨1, ![n]⟩ : Shape).Idx → α)
    (h : (⟨1, ![n]⟩ : Shape).ShapeCasts ⟨2, ![1, n]⟩) (z : Fin 1) (k : Fin n) :
    shapeCast ⟨2, ![1, n]⟩ b h (ix2 z k) = b (ix1 k) := by
  refine (shapeCast_addUnit_apply ![n] b h (ix2 z k)).trans (congrArg b (funext fun a => ?_))
  match a with
  | ⟨0, _⟩ => rfl

theorem projectCol_reshape {N n k : ℕ} (x : Mat N n) (d : Vect N) (W : Mat n k)
    (h : (⟨1, ![N]⟩ : Shape).ShapeCasts ⟨2, ![N, 1]⟩) :
    projectCol x (shapeCast ⟨2, ![N, 1]⟩ d h) W = project x d W := by
  funext i
  unfold projectCol project
  rw [Cert.ColumnForms.shapeCast_a_a1_apply d h (i 0) 0]

theorem normalizeCol_reshape {N k : ℕ} (a : Mat N k) (d : Vect N) (b : Vect k)
    (h : (⟨1, ![N]⟩ : Shape).ShapeCasts ⟨2, ![N, 1]⟩) (h' : (⟨1, ![k]⟩ : Shape).ShapeCasts ⟨2, ![1, k]⟩) :
    normalizeCol a (shapeCast ⟨2, ![N, 1]⟩ d h) (shapeCast ⟨2, ![1, k]⟩ b h') = normalize a d b := by
  funext i
  unfold normalizeCol normalize
  rw [Cert.ColumnForms.shapeCast_a_a1_apply d h (i 0) 0, shapeCast_n_1n_apply b h' 0 (i 1)]

/-! ## What a kernel computes on a block of rows -/

/-- The projection of a block: the scaled rows and the weights narrowed to bf16 and multiplied on the matrix unit into
    the zero matrix. -/
theorem projectBlock_apply {R n k : ℕ} (wf) (prec : Option ContractPrecision)
    (x0 : FVec Ideal (⟨2, ![R, n]⟩ : Shape) .f32) (x1 : FVec Ideal (⟨2, ![R, 1]⟩ : Shape) .f32)
    (x2 : FVec Ideal (⟨2, ![n, k]⟩ : Shape) .f32)
    (hb : (⟨2, ![R, 1]⟩ : Shape).Broadcasts ⟨2, ![R, n]⟩) (hlt : FTy.bf16.bits < FTy.f32.bits) (q : Fin R) (o : Fin k) :
    matmul (Cert.PointConv.plainDims R n k wf) prec
        (truncf .bf16 (mulf x0 (broadcastTo ⟨2, ![R, n]⟩ (rsqrt x1) hb)) hlt) (truncf .bf16 x2 hlt)
        (constant (F := Ideal) (⟨2, ![R, k]⟩ : Shape) .f32 0x00000000#32) (ix2 q o)
      = ∑ c : Fin n, (x0 (ix2 q c) * Ideal.rsqrt (x1 (ix2 q (0 : Fin 1)))) * x2 (ix2 c o) := by
  refine (Cert.PointConv.plainMatmul_zero_apply wf prec _ _ q o).trans ?_
  refine Finset.sum_congr rfl fun c _ => ?_
  show x0 (ix2 q c) * broadcastTo ⟨2, ![R, n]⟩ (rsqrt x1) hb (ix2 q c) * x2 (ix2 c o) = _
  rw [Cert.ColumnForms.broadcastTo_a1_ab_apply (rsqrt x1) hb q c]
  rfl

/-- The normalisation of a block: the edge sums times the copied column, plus the copied bias row. -/
theorem normalizeBlock_apply {R k : ℕ} (x0 : FVec Ideal (⟨2, ![R, k]⟩ : Shape) .f32)
    (x1 : FVec Ideal (⟨2, ![R, 1]⟩ : Shape) .f32) (x2 : FVec Ideal (⟨2, ![1, k]⟩ : Shape) .f32)
    (hb : (⟨2, ![R, 1]⟩ : Shape).Broadcasts ⟨2, ![R, k]⟩) (hr : (⟨2, ![1, k]⟩ : Shape).Broadcasts ⟨2, ![R, k]⟩)
    (q : Fin R) (o : Fin k) :
    addf (mulf x0 (broadcastTo ⟨2, ![R, k]⟩ (rsqrt x1) hb)) (broadcastTo ⟨2, ![R, k]⟩ x2 hr) (ix2 q o)
      = x0 (ix2 q o) * Ideal.rsqrt (x1 (ix2 q (0 : Fin 1))) + x2 (ix2 (0 : Fin 1) o) := by
  show x0 (ix2 q o) * broadcastTo ⟨2, ![R, k]⟩ (rsqrt x1) hb (ix2 q o) + broadcastTo ⟨2, ![R, k]⟩ x2 hr (ix2 q o) = _
  rw [Cert.ColumnForms.broadcastTo_a1_ab_apply (rsqrt x1) hb q o, RowLayout.rowBroadcast_apply x2 hr q o]
  rfl

/-- The same followed by the maximum against a splat of the zero word. -/
theorem normalizeReluBlock_apply {R k : ℕ} (x0 : FVec Ideal (⟨2, ![R, k]⟩ : Shape) .f32)
    (x1 : FVec Ideal (⟨2, ![R, 1]⟩ : Shape) .f32) (x2 : FVec Ideal (⟨2, ![1, k]⟩ : Shape) .f32)
    (hb : (⟨2, ![R, 1]⟩ : Shape).Broadcasts ⟨2, ![R, k]⟩) (hr : (⟨2, ![1, k]⟩ : Shape).Broadcasts ⟨2, ![R, k]⟩)
    (q : Fin R) (o : Fin k) :
    maximumf (addf (mulf x0 (broadcastTo ⟨2, ![R, k]⟩ (rsqrt x1) hb)) (broadcastTo ⟨2, ![R, k]⟩ x2 hr))
        (broadcast ⟨2, ![R, k]⟩ (Scalar.ofBits (F := Ideal) .f32 0x00000000#32)) (ix2 q o)
      = max (x0 (ix2 q o) * Ideal.rsqrt (x1 (ix2 q (0 : Fin 1))) + x2 (ix2 (0 : Fin 1) o)) zeroWord := by
  show max (addf (mulf x0 (broadcastTo ⟨2, ![R, k]⟩ (rsqrt x1) hb)) (broadcastTo ⟨2, ![R, k]⟩ x2 hr) (ix2 q o)) _ = _
  rw [normalizeBlock_apply x0 x1 x2 hb hr q o]
  rfl

end Cert.GraphLayer

end
-- ==== Proof.Glue.lean ====
/-
  The network as one function of its seven arguments.

  Around the two halves of a layer (`project`, `normalize`) the network does three things on the host, the same in
  the kernel program and in the reference: it counts each node's degree in an index list, floored at one
  (`degree`); and, per layer, it copies the projected row of each edge's source node (an index below zero counts
  from the end) and adds the copies up per destination node (`aggregate64`, `aggregate40`: a gather followed by a
  sum by segments into zeros). None of the three is opened here: they are carried as they are printed.
  `network` composes two layers, the first followed by the maximum with zero.
-/
import proofs.«110410_j82197084110895_1_alg».proof.Proof.Gen.ReferenceIdeal.Read
import proofs.«110410_j82197084110895_1_alg».proof.Proof.LibGraphLayer

noncomputable section

namespace Cert.GraphNet

open Idealize.ShloMosaic Idealize.ShloMosaic.ValueIdx Cert.GraphLayer
open Cert.ReferenceIdeal Cert.ReferenceIdeal.Read

/-- A list of node positions, one per edge. -/
abbrev Idxs : Type := (⟨S1600000, .i32⟩ : BufTy).Contents (Elt Ideal)

/-- How many times each node occurs in the list, floored at one. -/
def degree (idx : Idxs) : Vect 100000 := val_main_v4 (F := Ideal) idx

/-- Per destination node, the sum over its edges of the source node's row (rows of width 64). -/
def aggregate64 (h : Mat 100000 64) (src dst : Idxs) : Mat 100000 64 :=
  Host.scatterAdd (F := Ideal) (φ := .f32) scatter_S100000x64_S1600000x1_S1600000x64_1_0_0_1 (val_main_v22 (F := Ideal)) (val_main_v23 (F := Ideal) dst)
    (Host.gather (α := Ideal .f32) gather_S100000x64_S1600000x1_S1600000x64_1_0_n_n_0_1_164 h (val_main_v20 (F := Ideal) src))

/-- The same for rows of width 40. -/
def aggregate40 (h : Mat 100000 40) (src dst : Idxs) : Mat 100000 40 :=
  Host.scatterAdd (F := Ideal) (φ := .f32) scatter_S100000x40_S1600000x1_S1600000x40_1_0_0_1 (val_main_v55 (F := Ideal)) (val_main_v56 (F := Ideal) dst)
    (Host.gather (α := Ideal .f32) gather_S100000x40_S1600000x1_S1600000x40_1_0_n_n_0_1_140 h (val_main_v53 (F := Ideal) src))

/-- The first layer, up to and including the maximum with zero. -/
def hidden (x : Mat 100000 64) (src dst : Idxs) (W0 : Mat 64 64) (b0 : Vect 64) : Mat 100000 64 :=
  rectify (normalize (aggregate64 (project x (degree src) W0) src dst) (degree dst) b0)

/-- Both layers. -/
def network (x : Mat 100000 64) (src dst : Idxs) (W0 : Mat 64 64) (b0 : Vect 64) (W1 : Mat 64 40) (b1 : Vect 40) :
    Mat 100000 40 :=
  normalize (aggregate40 (project (hidden x src dst W0 b0) (degree src) W1) src dst) (degree dst) b1

end Cert.GraphNet

end
-- ==== Proof.Host0.lean ====
/-
  The kernel program's buffers when its first region is entered.

  Before the first region the host counts the two degree vectors — ones summed by segments into zeros along the source
  list and along the destination list, each floored at one — and lays the source-side degrees out as a column. No
  operation writes an argument. Each fact below reads one buffer after these operations, as a function of the launch
  memory `m`. The floor at one is an outlined function of three operations over typed references; `floorOps0` and
  `floorOps1` are the same operations over the plain references (the typed ones only transport along a type equation
  that holds by computation).
-/
import proofs.«110410_j82197084110895_1_alg».proof.Proof.Gen.KernelIdeal.Frame
import proofs.«110410_j82197084110895_1_alg».proof.Proof.LibGraphLayer
import proofs.«110410_j82197084110895_1_alg».proof.Proof.Glue

set_option maxRecDepth 16384

noncomputable section

open Idealize.ShloMosaic Idealize.ShloMosaic.TcCoe Idealize.SL.Sem Idealize.ShloMosaic.ValueIdx
open Idealize.ShloMosaic.StableHlo

namespace Cert.KernelIdeal.Boundary

open Cert.KernelIdeal Cert.KernelIdeal.Gen Cert.GraphLayer Cert.GraphNet

variable (m : (ℓ : Loc nD τ sig) → Buf (Elt Ideal) ℓ) (ρ : Dev nD → PrngReg) (c : Dev nD)

/-- The floor at one of the source-side counts: the one, copied along the nodes, and the maximum. -/
abbrev floorOps0 : List (HloOp τ sig (Elt Ideal)) :=
  [ StableHlo.unary main_cst_1 main_call0_v0 (id : (⟨S_, .f32⟩ : BufTy).Contents (Elt Ideal) → (⟨S_, .f32⟩ : BufTy).Contents (Elt Ideal)),
    StableHlo.unary main_call0_v0 main_call0_v1 (broadcastInDim S100000 ![] Facts₀.bcast_S_S100000 : (⟨S_, .f32⟩ : BufTy).Contents (Elt Ideal) → (⟨S100000, .f32⟩ : BufTy).Contents (Elt Ideal)),
    StableHlo.binary main_call0_v1 main_v3 main_v4 ((fun a b => maximumf (F := Ideal) (s := S100000) (φ := .f32) a b) : (⟨S100000, .f32⟩ : BufTy).Contents (Elt Ideal) → (⟨S100000, .f32⟩ : BufTy).Contents (Elt Ideal) → (⟨S100000, .f32⟩ : BufTy).Contents (Elt Ideal)) ]

theorem floorOps0_eq : (hostOps0_1 : List (HloOp τ sig (Elt Ideal))) = floorOps0 := rfl

/-- The same for the destination-side counts. -/
abbrev floorOps1 : List (HloOp τ sig (Elt Ideal)) :=
  [ StableHlo.unary main_cst_4 main_call1_v0 (id : (⟨S_, .f32⟩ : BufTy).Contents (Elt Ideal) → (⟨S_, .f32⟩ : BufTy).Contents (Elt Ideal)),
    StableHlo.unary main_call1_v0 main_call1_v1 (broadcastInDim S100000 ![] Facts₀.bcast_S_S100000 : (⟨S_, .f32⟩ : BufTy).Contents (Elt Ideal) → (⟨S100000, .f32⟩ : BufTy).Contents (Elt Ideal)),
    StableHlo.binary main_call1_v1 main_v8 main_v9 ((fun a b => maximumf (F := Ideal) (s := S100000) (φ := .f32) a b) : (⟨S100000, .f32⟩ : BufTy).Contents (Elt Ideal) → (⟨S100000, .f32⟩ : BufTy).Contents (Elt Ideal) → (⟨S100000, .f32⟩ : BufTy).Contents (Elt Ideal)) ]

theorem floorOps1_eq : (hostOps0_3 : List (HloOp τ sig (Elt Ideal))) = floorOps1 := rfl

theorem W5_arg0 : W5 m ρ c (Proc.devRef .tc main_arg0) = m ((c : Thread nD τ).loc main_arg0) := by
  dsimp only [W5, W4, W3, W2, W1]
  rw [floorOps0_eq, floorOps1_eq]
  dsimp only [hostOps0_4, floorOps1, hostOps0_2, floorOps0, hostOps0]
  after_results_simp <;> rfl

theorem W5_arg1 : W5 m ρ c (Proc.devRef .tc main_arg1) = m ((c : Thread nD τ).loc main_arg1) := by
  dsimp only [W5, W4, W3, W2, W1]
  rw [floorOps0_eq, floorOps1_eq]
  dsimp only [hostOps0_4, floorOps1, hostOps0_2, floorOps0, hostOps0]
  after_results_simp <;> rfl

theorem W5_arg2 : W5 m ρ c (Proc.devRef .tc main_arg2) = m ((c : Thread nD τ).loc main_arg2) := by
  dsimp only [W5, W4, W3, W2, W1]
  rw [floorOps0_eq, floorOps1_eq]
  dsimp only [hostOps0_4, floorOps1, hostOps0_2, floorOps0, hostOps0]
  after_results_simp <;> rfl

theorem W5_arg3 : W5 m ρ c (Proc.devRef .tc main_arg3) = m ((c : Thread nD τ).loc main_arg3) := by
  dsimp only [W5, W4, W3, W2, W1]
  rw [floorOps0_eq, floorOps1_eq]
  dsimp only [hostOps0_4, floorOps1, hostOps0_2, floorOps0, hostOps0]
  after_results_simp <;> rfl

theorem W5_arg4 : W5 m ρ c (Proc.devRef .tc main_arg4) = m ((c : Thread nD τ).loc main_arg4) := by
  dsimp only [W5, W4, W3, W2, W1]
  rw [floorOps0_eq, floorOps1_eq]
  dsimp only [hostOps0_4, floorOps1, hostOps0_2, floorOps0, hostOps0]
  after_results_simp <;> rfl

theorem W5_arg5 : W5 m ρ c (Proc.devRef .tc main_arg5) = m ((c : Thread nD τ).loc main_arg5) := by
  dsimp only [W5, W4, W3, W2, W1]
  rw [floorOps0_eq, floorOps1_eq]
  dsimp only [hostOps0_4, floorOps1, hostOps0_2, floorOps0, hostOps0]
  after_results_simp <;> rfl

theorem W5_arg6 : W5 m ρ c (Proc.devRef .tc main_arg6) = m ((c : Thread nD τ).loc main_arg6) := by
  dsimp only [W5, W4, W3, W2, W1]
  rw [floorOps0_eq, floorOps1_eq]
  dsimp only [hostOps0_4, floorOps1, hostOps0_2, floorOps0, hostOps0]
  after_results_simp <;> rfl

/-- The source-side degrees. -/
theorem W5_v4 : W5 m ρ c (Proc.devRef .tc main_v4) = degree (m ((c : Thread nD τ).loc main_arg1)) := by
  dsimp only [W5, W4, W3, W2, W1]
  rw [floorOps0_eq, floorOps1_eq]
  dsimp only [hostOps0_4, floorOps1, hostOps0_2, floorOps0, hostOps0]
  after_results_simp <;> rfl

/-- The destination-side degrees. -/
theorem W5_v9 : W5 m ρ c (Proc.devRef .tc main_v9) = degree (m ((c : Thread nD τ).loc main_arg2)) := by
  dsimp only [W5, W4, W3, W2, W1]
  rw [floorOps0_eq, floorOps1_eq]
  dsimp only [hostOps0_4, floorOps1, hostOps0_2, floorOps0, hostOps0]
  after_results_simp <;> rfl

/-- The source-side degrees as a column. -/
theorem W5_v10 : W5 m ρ c (Proc.devRef .tc main_v10)
    = shapeCast S100000x1 (degree (m ((c : Thread nD τ).loc main_arg1))) Facts₀.shapeCasts_S100000_S100000x1 := by
  dsimp only [W5, W4, W3, W2, W1]
  rw [floorOps0_eq, floorOps1_eq]
  dsimp only [hostOps0_4, floorOps1, hostOps0_2, floorOps0, hostOps0]
  after_results_simp <;> rfl

end Cert.KernelIdeal.Boundary

end
-- ==== Proof.Region0.lean ====
/-
  Region 0 of the kernel program: the projection half of a layer, row block by row block.

  The grid has ten points; point `t` is handed rows `10000 t … 10000 t + 9999` of the features and of the degree
  column, and the whole weight matrix, and writes back the same rows of the result. On its block the body computes
  `projectCol` of the block (`pay_apply`); a block's row `q` is the array's row `10000 t + q` (`blk*_apply`,
  `emb_out`), so what point `t` writes back is block `t` of `projectCol` of the whole arrays (`flushed_eq`);
  the ten blocks cover the result (`cover`), which therefore ends holding `projectCol` of the arrays the region
  was entered with (`final`). Everything is stated at any entry contents `V`.
-/
import proofs.«110410_j82197084110895_1_alg».proof.Proof.Gen.KernelIdeal.Frame
import proofs.«110410_j82197084110895_1_alg».proof.Proof.LibGraphLayer
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.GraphLayer

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block, read at entry `(q, o)`. -/
theorem pay_apply (x1 : Vec Ideal S10000x1 .f32) (x0 : Vec Ideal S10000x64 .f32) (x2 : Vec Ideal S64x64 .f32)
    (q : Fin 10000) (o : Fin 64) :
    k0_pay1 x1 x0 x2 (ix2 q o) = ∑ c' : Fin 64, (x0 (ix2 q c') * Ideal.rsqrt (x1 (ix2 q (0 : Fin 1)))) * x2 (ix2 c' o) := by
  unfold k0_pay1
  simp only [shapeCast_self]
  exact projectBlock_apply (R := 10000) (n := 64) (k := 64) _ none x0 x1 x2 _ _ q o

/-- The printed index maps, decided over the ten points: the row-blocked windows are at block `(t, 0)`, the
    whole-array window at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `q` of block `t` is row `10000 t + q` of the array. -/
def rowOf (t : Fin cfg0.N) (q : Fin 10000) : Fin 100000 :=
  ⟨t.val * 10000 + q.val, by have h : t.val < 10 := lt_of_lt_of_eq t.isLt N_0; have := q.isLt; omega⟩

/-- Window 0's block at point `t`: the rows of the first operand. -/
theorem blk0_apply (c : Dev nD) (t : Fin cfg0.N) (q : Fin 10000) (o : Fin 64) :
    (iblk0 V c 0 t : Vec Ideal S10000x64 .f32) (ix2 q o) = (V c main_arg0 : S100000x64.Idx → EReal) (ix2 (rowOf t q) o) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * q.val = t.val * 10000 + q.val; rw [e0]; omega
  | ⟨1, _⟩ => show win0_0.index t (1 : Fin 2) * 64 + 1 * o.val = o.val; rw [e1]; omega

/-- Window 1's block at point `t`: the rows of the degree column. -/
theorem blk1_apply (c : Dev nD) (t : Fin cfg0.N) (q : Fin 10000) (u : Fin 1) :
    (iblk0 V c 1 t : Vec Ideal S10000x1 .f32) (ix2 q u) = (V c main_v10 : S100000x1.Idx → EReal) (ix2 (rowOf t q) (0 : Fin 1)) := by
  obtain ⟨-, -, e2, e3, -⟩ := idx_facts t
  unfold iblk0
  rw [View.read_apply]
  show V c main_v10 _ = V c main_v10 _
  refine congrArg (V c main_v10) (funext fun a => Fin.ext ?_)
  match a with
  | ⟨0, _⟩ => show win0_1.index t (0 : Fin 2) * 10000 + 1 * q.val = t.val * 10000 + q.val; rw [e2]; omega
  | ⟨1, _⟩ => show win0_1.index t (1 : Fin 2) * 1 + 1 * u.val = 0; rw [e3]; have := u.isLt; omega

/-- Window 2's block at every point: the whole third operand. -/
theorem blk2_apply (c : Dev nD) (t : Fin cfg0.N) (p : Fin 64) (o : Fin 64) :
    (iblk0 V c 2 t : Vec Ideal S64x64 .f32) (ix2 p o) = (V c main_arg3 : S64x64.Idx → EReal) (ix2 p o) := by
  obtain ⟨-, -, -, -, e4, e5, -⟩ := idx_facts t
  unfold iblk0
  rw [View.read_apply]
  show V c main_arg3 _ = V c main_arg3 _
  refine congrArg (V c main_arg3) (funext fun a => Fin.ext ?_)
  match a with
  | ⟨0, _⟩ => show win0_2.index t (0 : Fin 2) * 64 + 1 * p.val = p.val; rw [e4]; omega
  | ⟨1, _⟩ => show win0_2.index t (1 : Fin 2) * 64 + 1 * o.val = o.val; rw [e5]; omega

/-- Entry `(q, o)` of the output's block at point `t` sits at `(10000 t + q, o)` of the result array. -/
theorem emb_out (t : Fin cfg0.N) (q : Fin 10000) (o : Fin 64) :
    ((cfg0.win 3).blk t).view.emb (ix2 q o) = (ix2 (rowOf t q) o : S100000x64.Idx) := by
  obtain ⟨-, -, -, -, -, -, e6, e7⟩ := idx_facts t
  refine funext fun a => Fin.ext ?_
  match a with
  | ⟨0, _⟩ => show win0_3.index t (0 : Fin 2) * 10000 + 1 * q.val = t.val * 10000 + q.val; rw [e6]; omega
  | ⟨1, _⟩ => show win0_3.index t (1 : Fin 2) * 64 + 1 * o.val = o.val; rw [e7]; omega

/-- What the result array ends holding, as one function of the arrays the region is entered with. -/
abbrev G (c : Dev nD) : S100000x64.Idx → EReal := projectCol (V c main_arg0) (V c main_v10) (V c main_arg3)

/-- What point `t` writes back is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S10000x1) hz, View.ld_unit_zero (S := S10000x64) hz, View.ld_unit_zero (S := S64x64) hz]
  funext j
  obtain ⟨q, o, rfl⟩ : ∃ (q : Fin 10000) (o : Fin 64), j = ix2 q o := ⟨j 0, j 1, eq_ix2 j⟩
  rw [View.read_apply, emb_out t q o]
  refine (pay_apply _ _ _ q o).trans ?_
  show _ = projectCol _ _ _ _
  unfold projectCol
  refine Finset.sum_congr rfl fun c' _ => ?_
  rw [blk0_apply V c t q c', blk1_apply V c t q 0, blk2_apply V c t c' o]

/-- An index of the result array is in point `t`'s block iff each coordinate is in the block's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v11).slice (win0_3.rect t)).set ↔ _
  rw [View.set_slice_whole, Rect.mem_set_unit]
  exact Iff.rfl

/-- Row `r` of the result is in the block of point `r / 10000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, -, -, e6, e7⟩ := idx_facts ⟨(i 0).val / 10000, ht⟩
  refine ⟨⟨(i 0).val / 10000, ht⟩, flush0_3 _, ?_⟩
  rw [mem_blk]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e7]; omega

/-- The result array after the region. -/
theorem final (c : Dev nD) : (dat0 V c).arrAt 3 cfg0.N = G V c :=
  (dat0 V c).arrAt_eq_of_cover 3 (G V c) (fun t _ => flushed_eq V c t) cover

end Cert.KernelIdeal.Region0

end
-- ==== Proof.Host1.lean ====
/-
  The kernel program's buffers after its first region and when its second is entered.

  The first region leaves the projected rows of the first layer in its result array and nothing else changed. The host
  then copies each edge's source row and adds the copies per destination node (`aggregate64`), lays the
  destination-side degrees out as a column and the first bias as a row. The arguments and the two degree vectors pass
  through unwritten.
-/
import proofs.«110410_j82197084110895_1_alg».proof.Proof.Gen.KernelIdeal.Frame
import proofs.«110410_j82197084110895_1_alg».proof.Proof.LibGraphLayer
import proofs.«110410_j82197084110895_1_alg».proof.Proof.Glue
import proofs.«110410_j82197084110895_1_alg».proof.Proof.Host0
import proofs.«110410_j82197084110895_1_alg».proof.Proof.Region0

set_option maxRecDepth 16384

noncomputable section

open Idealize.ShloMosaic Idealize.ShloMosaic.TcCoe Idealize.SL.Sem Idealize.ShloMosaic.ValueIdx
open Idealize.ShloMosaic.StableHlo

namespace Cert.KernelIdeal.Boundary

open Cert.KernelIdeal Cert.KernelIdeal.Gen Cert.GraphLayer Cert.GraphNet

variable (m : (ℓ : Loc nD τ sig) → Buf (Elt Ideal) ℓ) (ρ : Dev nD → PrngReg) (c : Dev nD)

/-- After the first region: the first layer's projected rows. -/
theorem W6_v11 : W6 m ρ c (Proc.devRef .tc main_v11) = (project (m ((c : Thread nD τ).loc main_arg0)) (degree (m ((c : Thread nD τ).loc main_arg1))) (m ((c : Thread nD τ).loc main_arg3))) := by
  refine (W6_arr m ρ c 3).trans ((Region0.final (V5 m ρ) c).trans ?_)
  show projectCol (W5 m ρ c (Proc.devRef .tc main_arg0)) (W5 m ρ c (Proc.devRef .tc main_v10)) (W5 m ρ c (Proc.devRef .tc main_arg3)) = _
  rw [W5_arg0, W5_v10, W5_arg3]
  exact projectCol_reshape _ _ _ _

theorem W6_arg1 : W6 m ρ c (Proc.devRef .tc main_arg1) = (m ((c : Thread nD τ).loc main_arg1)) :=
  (W6_of_ne m ρ c main_arg1 (by decide)).trans (W5_arg1 m ρ c)

theorem W6_arg2 : W6 m ρ c (Proc.devRef .tc main_arg2) = (m ((c : Thread nD τ).loc main_arg2)) :=
  (W6_of_ne m ρ c main_arg2 (by decide)).trans (W5_arg2 m ρ c)

theorem W6_arg4 : W6 m ρ c (Proc.devRef .tc main_arg4) = (m ((c : Thread nD τ).loc main_arg4)) :=
  (W6_of_ne m ρ c main_arg4 (by decide)).trans (W5_arg4 m ρ c)

theorem W6_arg5 : W6 m ρ c (Proc.devRef .tc main_arg5) = (m ((c : Thread nD τ).loc main_arg5)) :=
  (W6_of_ne m ρ c main_arg5 (by decide)).trans (W5_arg5 m ρ c)

theorem W6_arg6 : W6 m ρ c (Proc.devRef .tc main_arg6) = (m ((c : Thread nD τ).loc main_arg6)) :=
  (W6_of_ne m ρ c main_arg6 (by decide)).trans (W5_arg6 m ρ c)

theorem W6_v4 : W6 m ρ c (Proc.devRef .tc main_v4) = (degree (m ((c : Thread nD τ).loc main_arg1))) :=
  (W6_of_ne m ρ c main_v4 (by decide)).trans (W5_v4 m ρ c)

theorem W6_v9 : W6 m ρ c (Proc.devRef .tc main_v9) = (degree (m ((c : Thread nD τ).loc main_arg2))) :=
  (W6_of_ne m ρ c main_v9 (by decide)).trans (W5_v9 m ρ c)

theorem W7_arg1 : W7 m ρ c (Proc.devRef .tc main_arg1) = (m ((c : Thread nD τ).loc main_arg1)) := by
  dsimp only [W7, hostOps1]
  after_results_simp
  exact W6_arg1 m ρ c

theorem W7_arg2 : W7 m ρ c (Proc.devRef .tc main_arg2) = (m ((c : Thread nD τ).loc main_arg2)) := by
  dsimp only [W7, hostOps1]
  after_results_simp
  exact W6_arg2 m ρ c

theorem W7_arg5 : W7 m ρ c (Proc.devRef .tc main_arg5) = (m ((c : Thread nD τ).loc main_arg5)) := by
  dsimp only [W7, hostOps1]
  after_results_simp
  exact W6_arg5 m ρ c

theorem W7_arg6 : W7 m ρ c (Proc.devRef .tc main_arg6) = (m ((c : Thread nD τ).loc main_arg6)) := by
  dsimp only [W7, hostOps1]
  after_results_simp
  exact W6_arg6 m ρ c

theorem W7_v4 : W7 m ρ c (Proc.devRef .tc main_v4) = (degree (m ((c : Thread nD τ).loc main_arg1))) := by
  dsimp only [W7, hostOps1]
  after_results_simp
  exact W6_v4 m ρ c

theorem W7_v9 : W7 m ρ c (Proc.devRef .tc main_v9) = (degree (m ((c : Thread nD τ).loc main_arg2))) := by
  dsimp only [W7, hostOps1]
  after_results_simp
  exact W6_v9 m ρ c

/-- The first layer's sums over the edges. -/
theorem W7_v21 : W7 m ρ c (Proc.devRef .tc main_v21) = aggregate64 (project (m ((c : Thread nD τ).loc main_arg0)) (degree (m ((c : Thread nD τ).loc main_arg1))) (m ((c : Thread nD τ).loc main_arg3))) (m ((c : Thread nD τ).loc main_arg1)) (m ((c : Thread nD τ).loc main_arg2)) := by
  dsimp only [W7, hostOps1]
  after_results_simp
  rw [W6_v11, W6_arg1, W6_arg2]
  rfl

/-- The destination-side degrees as a column. -/
theorem W7_v22 : W7 m ρ c (Proc.devRef .tc main_v22) = shapeCast S100000x1 (degree (m ((c : Thread nD τ).loc main_arg2))) Facts₀.shapeCasts_S100000_S100000x1 := by
  dsimp only [W7, hostOps1]
  after_results_simp
  rw [W6_v9]
  rfl

/-- The first bias as a row. -/
theorem W7_v23 : W7 m ρ c (Proc.devRef .tc main_v23) = shapeCast S1x64 (m ((c : Thread nD τ).loc main_arg4)) Facts₀.shapeCasts_S64_S1x64 := by
  dsimp only [W7, hostOps1]
  after_results_simp
  rw [W6_arg4]
  rfl

end Cert.KernelIdeal.Boundary

end
-- ==== Proof.Region1.lean ====
/-
  Region 1 of the kernel program: the normalisation half of a layer, with the maximum against zero, row block by row block.

  The grid has ten points; point `t` is handed rows `10000 t … 10000 t + 9999` of the edge sums and of the degree
  column, and the whole bias row, and writes back the same rows of the result. On its block the body computes
  `normalizeCol` of the block and takes the maximum with zero (`pay_apply`); a block's row `q` is the array's row
  `10000 t + q` (`blk*_apply`, `emb_out`), so what point `t` writes back is block `t` of the same function of the
  whole arrays (`flushed_eq`); the ten blocks cover the result (`cover`), which therefore ends holding that function
  of the arrays the region was entered with (`final`). Everything is stated at any entry contents `V`.
-/
import proofs.«110410_j82197084110895_1_alg».proof.Proof.Gen.KernelIdeal.Frame
import proofs.«110410_j82197084110895_1_alg».proof.Proof.LibGraphLayer
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.GraphLayer

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block, read at entry `(q, o)`. -/
theorem pay_apply (x1 : Vec Ideal S10000x1 .f32) (x0 : Vec Ideal S10000x64 .f32) (x2 : Vec Ideal S1x64 .f32)
    (q : Fin 10000) (o : Fin 64) :
    k1_pay1 x1 x0 x2 (ix2 q o) = max (x0 (ix2 q o) * Ideal.rsqrt (x1 (ix2 q (0 : Fin 1))) + x2 (ix2 (0 : Fin 1) o)) zeroWord := by
  unfold k1_pay1
  simp only [shapeCast_self]
  exact normalizeReluBlock_apply (R := 10000) (k := 64) x0 x1 x2 _ _ q o

/-- The printed index maps, decided over the ten points: the row-blocked windows are at block `(t, 0)`, the
    whole-array window at block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `q` of block `t` is row `10000 t + q` of the array. -/
def rowOf (t : Fin cfg1.N) (q : Fin 10000) : Fin 100000 :=
  ⟨t.val * 10000 + q.val, by have h : t.val < 10 := lt_of_lt_of_eq t.isLt N_1; have := q.isLt; omega⟩

/-- Window 0's block at point `t`: the rows of the first operand. -/
theorem blk0_apply (c : Dev nD) (t : Fin cfg1.N) (q : Fin 10000) (o : Fin 64) :
    (iblk1 V c 0 t : Vec Ideal S10000x64 .f32) (ix2 q o) = (V c main_v21 : S100000x64.Idx → EReal) (ix2 (rowOf t q) o) := by
  obtain ⟨e0, e1, -⟩ := idx_facts t
  unfold iblk1
  rw [View.read_apply]
  show V c main_v21 _ = V c main_v21 _
  refine congrArg (V c main_v21) (funext fun a => Fin.ext ?_)
  match a with
  | ⟨0, _⟩ => show win1_0.index t (0 : Fin 2) * 10000 + 1 * q.val = t.val * 10000 + q.val; rw [e0]; omega
  | ⟨1, _⟩ => show win1_0.index t (1 : Fin 2) * 64 + 1 * o.val = o.val; rw [e1]; omega

/-- Window 1's block at point `t`: the rows of the degree column. -/
theorem blk1_apply (c : Dev nD) (t : Fin cfg1.N) (q : Fin 10000) (u : Fin 1) :
    (iblk1 V c 1 t : Vec Ideal S10000x1 .f32) (ix2 q u) = (V c main_v22 : S100000x1.Idx → EReal) (ix2 (rowOf t q) (0 : Fin 1)) := by
  obtain ⟨-, -, e2, e3, -⟩ := idx_facts t
  unfold iblk1
  rw [View.read_apply]
  show V c main_v22 _ = V c main_v22 _
  refine congrArg (V c main_v22) (funext fun a => Fin.ext ?_)
  match a with
  | ⟨0, _⟩ => show win1_1.index t (0 : Fin 2) * 10000 + 1 * q.val = t.val * 10000 + q.val; rw [e2]; omega
  | ⟨1, _⟩ => show win1_1.index t (1 : Fin 2) * 1 + 1 * u.val = 0; rw [e3]; have := u.isLt; omega

/-- Window 2's block at every point: the whole third operand. -/
theorem blk2_apply (c : Dev nD) (t : Fin cfg1.N) (p : Fin 1) (o : Fin 64) :
    (iblk1 V c 2 t : Vec Ideal S1x64 .f32) (ix2 p o) = (V c main_v23 : S1x64.Idx → EReal) (ix2 p o) := by
  obtain ⟨-, -, -, -, e4, e5, -⟩ := idx_facts t
  unfold iblk1
  rw [View.read_apply]
  show V c main_v23 _ = V c main_v23 _
  refine congrArg (V c main_v23) (funext fun a => Fin.ext ?_)
  match a with
  | ⟨0, _⟩ => show win1_2.index t (0 : Fin 2) * 1 + 1 * p.val = p.val; rw [e4]; omega
  | ⟨1, _⟩ => show win1_2.index t (1 : Fin 2) * 64 + 1 * o.val = o.val; rw [e5]; omega

/-- Entry `(q, o)` of the output's block at point `t` sits at `(10000 t + q, o)` of the result array. -/
theorem emb_out (t : Fin cfg1.N) (q : Fin 10000) (o : Fin 64) :
    ((cfg1.win 3).blk t).view.emb (ix2 q o) = (ix2 (rowOf t q) o : S100000x64.Idx) := by
  obtain ⟨-, -, -, -, -, -, e6, e7⟩ := idx_facts t
  refine funext fun a => Fin.ext ?_
  match a with
  | ⟨0, _⟩ => show win1_3.index t (0 : Fin 2) * 10000 + 1 * q.val = t.val * 10000 + q.val; rw [e6]; omega
  | ⟨1, _⟩ => show win1_3.index t (1 : Fin 2) * 64 + 1 * o.val = o.val; rw [e7]; omega

/-- What the result array ends holding, as one function of the arrays the region is entered with. -/
abbrev G (c : Dev nD) : S100000x64.Idx → EReal := rectify (normalizeCol (V c main_v21) (V c main_v22) (V c main_v23))

/-- What point `t` writes back is block `t` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S10000x1) hz, View.ld_unit_zero (S := S10000x64) hz, View.ld_unit_zero (S := S1x64) hz]
  funext j
  obtain ⟨q, o, rfl⟩ : ∃ (q : Fin 10000) (o : Fin 64), j = ix2 q o := ⟨j 0, j 1, eq_ix2 j⟩
  rw [View.read_apply, emb_out t q o]
  refine (pay_apply _ _ _ q o).trans ?_
  rw [blk0_apply V c t q o, blk1_apply V c t q 0, blk2_apply V c t 0 o]
  rfl

/-- An index of the result array is in point `t`'s block iff each coordinate is in the block's range. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v24).slice (win1_3.rect t)).set ↔ _
  rw [View.set_slice_whole, Rect.mem_set_unit]
  exact Iff.rfl

/-- Row `r` of the result is in the block of point `r / 10000`. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨-, -, -, -, -, -, e6, e7⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    rw [e7]; omega

/-- The result array after the region. -/
theorem final (c : Dev nD) : (dat1 V c).arrAt 3 cfg1.N = G V c :=
  (dat1 V c).arrAt_eq_of_cover 3 (G V c) (fun t _ => flushed_eq V c t) cover

end Cert.KernelIdeal.Region1

end
-- ==== Proof.Host2.lean ====
/-
  The kernel program's buffers after its second region and when its third is entered.

  The second region leaves the first layer's output — the normalised sums plus the bias, floored at zero — in its
  result array. The host then lays the source-side degrees out as a column again. Everything else passes through.
-/
import proofs.«110410_j82197084110895_1_alg».proof.Proof.Gen.KernelIdeal.Frame
import proofs.«110410_j82197084110895_1_alg».proof.Proof.LibGraphLayer
import proofs.«110410_j82197084110895_1_alg».proof.Proof.Glue
import proofs.«110410_j82197084110895_1_alg».proof.Proof.Host1
import proofs.«110410_j82197084110895_1_alg».proof.Proof.Region1

set_option maxRecDepth 16384

noncomputable section

open Idealize.ShloMosaic Idealize.ShloMosaic.TcCoe Idealize.SL.Sem Idealize.ShloMosaic.ValueIdx
open Idealize.ShloMosaic.StableHlo

namespace Cert.KernelIdeal.Boundary

open Cert.KernelIdeal Cert.KernelIdeal.Gen Cert.GraphLayer Cert.GraphNet

variable (m : (ℓ : Loc nD τ sig) → Buf (Elt Ideal) ℓ) (ρ : Dev nD → PrngReg) (c : Dev nD)

/-- After the second region: the first layer's output. -/
theorem W8_v24 : W8 m ρ c (Proc.devRef .tc main_v24) = (hidden (m ((c : Thread nD τ).loc main_arg0)) (m ((c : Thread nD τ).loc main_arg1)) (m ((c : Thread nD τ).loc main_arg2)) (m ((c : Thread nD τ).loc main_arg3)) (m ((c : Thread nD τ).loc main_arg4))) := by
  refine (W8_arr m ρ c 3).trans ((Region1.final (V7 m ρ) c).trans ?_)
  show rectify (normalizeCol (W7 m ρ c (Proc.devRef .tc main_v21)) (W7 m ρ c (Proc.devRef .tc main_v22)) (W7 m ρ c (Proc.devRef .tc main_v23))) = _
  rw [W7_v21, W7_v22, W7_v23, normalizeCol_reshape]
  rfl

theorem W8_arg1 : W8 m ρ c (Proc.devRef .tc main_arg1) = (m ((c : Thread nD τ).loc main_arg1)) :=
  (W8_of_ne m ρ c main_arg1 (by decide)).trans (W7_arg1 m ρ c)

theorem W8_arg2 : W8 m ρ c (Proc.devRef .tc main_arg2) = (m ((c : Thread nD τ).loc main_arg2)) :=
  (W8_of_ne m ρ c main_arg2 (by decide)).trans (W7_arg2 m ρ c)

theorem W8_arg5 : W8 m ρ c (Proc.devRef .tc main_arg5) = (m ((c : Thread nD τ).loc main_arg5)) :=
  (W8_of_ne m ρ c main_arg5 (by decide)).trans (W7_arg5 m ρ c)

theorem W8_arg6 : W8 m ρ c (Proc.devRef .tc main_arg6) = (m ((c : Thread nD τ).loc main_arg6)) :=
  (W8_of_ne m ρ c main_arg6 (by decide)).trans (W7_arg6 m ρ c)

theorem W8_v4 : W8 m ρ c (Proc.devRef .tc main_v4) = (degree (m ((c : Thread nD τ).loc main_arg1))) :=
  (W8_of_ne m ρ c main_v4 (by decide)).trans (W7_v4 m ρ c)

theorem W8_v9 : W8 m ρ c (Proc.devRef .tc main_v9) = (degree (m ((c : Thread nD τ).loc main_arg2))) :=
  (W8_of_ne m ρ c main_v9 (by decide)).trans (W7_v9 m ρ c)

theorem W9_arg1 : W9 m ρ c (Proc.devRef .tc main_arg1) = (m ((c : Thread nD τ).loc main_arg1)) := by
  dsimp only [W9, hostOps2]
  after_results_simp
  exact W8_arg1 m ρ c

theorem W9_arg2 : W9 m ρ c (Proc.devRef .tc main_arg2) = (m ((c : Thread nD τ).loc main_arg2)) := by
  dsimp only [W9, hostOps2]
  after_results_simp
  exact W8_arg2 m ρ c

theorem W9_arg5 : W9 m ρ c (Proc.devRef .tc main_arg5) = (m ((c : Thread nD τ).loc main_arg5)) := by
  dsimp only [W9, hostOps2]
  after_results_simp
  exact W8_arg5 m ρ c

theorem W9_arg6 : W9 m ρ c (Proc.devRef .tc main_arg6) = (m ((c : Thread nD τ).loc main_arg6)) := by
  dsimp only [W9, hostOps2]
  after_results_simp
  exact W8_arg6 m ρ c

theorem W9_v9 : W9 m ρ c (Proc.devRef .tc main_v9) = (degree (m ((c : Thread nD τ).loc main_arg2))) := by
  dsimp only [W9, hostOps2]
  after_results_simp
  exact W8_v9 m ρ c

theorem W9_v24 : W9 m ρ c (Proc.devRef .tc main_v24) = (hidden (m ((c : Thread nD τ).loc main_arg0)) (m ((c : Thread nD τ).loc main_arg1)) (m ((c : Thread nD τ).loc main_arg2)) (m ((c : Thread nD τ).loc main_arg3)) (m ((c : Thread nD τ).loc main_arg4))) := by
  dsimp only [W9, hostOps2]
  after_results_simp
  exact W8_v24 m ρ c

/-- The source-side degrees as a column, for the second layer. -/
theorem W9_v25 : W9 m ρ c (Proc.devRef .tc main_v25) = shapeCast S100000x1 (degree (m ((c : Thread nD τ).loc main_arg1))) Facts₀.shapeCasts_S100000_S100000x1 := by
  dsimp only [W9, hostOps2]
  after_results_simp
  rw [W8_v4]
  rfl

end Cert.KernelIdeal.Boundary

end
-- ==== Proof.Region2.lean ====
/-
  Region 2 of the kernel program: the projection half of a layer, row block by row block.

  The grid has ten points; point `t` is handed rows `10000 t … 10000 t + 9999` of the features and of the degree
  column, and the whole weight matrix, and writes back the same rows of the result. On its block the body computes
  `projectCol` of the block (`pay_apply`); a block's row `q` is the array's row `10000 t + q` (`blk*_apply`,
  `emb_out`), so what point `t` writes back is block `t` of `projectCol` of the whole arrays (`flushed_eq`);
  the ten blocks cover the result (`cover`), which therefore ends holding `projectCol` of the arrays the region
  was entered with (`final`). Everything is stated at any entry contents `V`.
-/
import proofs.«110410_j82197084110895_1_alg».proof.Proof.Gen.KernelIdeal.Frame
import proofs.«110410_j82197084110895_1_alg».proof.Proof.LibGraphLayer
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.GraphLayer

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block, read at entry `(q, o)`. -/
theorem pay_apply (x1 : Vec Ideal S10000x1 .f32) (x0 : Vec Ideal S10000x64 .f32) (x2 : Vec Ideal S64x40 .f32)
    (q : Fin 10000) (o : Fin 40) :
    k2_pay1 x1 x0 x2 (ix2 q o) = ∑ c' : Fin 64, (x0 (ix2 q c') * Ideal.rsqrt (x1 (ix2 q (0 : Fin 1)))) * x2 (ix2 c' o) := by
  unfold k2_pay1
  simp only [shapeCast_self]
  exact projectBlock_apply (R := 10000) (n := 64) (k := 40) _ none x0 x1 x2 _ _ q o

/-- The printed index maps, decided over the ten points: the row-blocked windows are at block `(t, 0)`, the
    whole-array window at block `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `q` of block `t` is row `10000 t + q` of the array. -/
def rowOf (t : Fin cfg2.N) (q : Fin 10000) : Fin 100000 :=
  ⟨t.val * 10000 + q.val, by have h : t.val < 10 := lt_of_lt_of_eq t.isLt N_2; have := q.isLt; omega⟩

/-- Window 0's block at point `t`: the rows of the first operand. -/
theorem blk0_apply (c : Dev nD) (t : Fin cfg2.N) (q : Fin 10000) (o : Fin 64) :
    (iblk2 V c 0 t : Vec Ideal S10000x64 .f32) (ix2 q o) = (V c main_v24 : S100000x64.Idx → EReal) (ix2 (rowOf t q) o) := by
  obtain ⟨e0, e1, -⟩ := idx_facts t
  unfold iblk2
  rw [View.read_apply]
  show V c main_v24 _ = V c main_v24 _
  refine congrArg (V c main_v24) (funext fun a => Fin.ext ?_)
  match a with
  | ⟨0, _⟩ => show win2_0.index t (0 : Fin 2) * 10000 + 1 * q.val = t.val * 10000 + q.val; rw [e0]; omega
  | ⟨1, _⟩ => show win2_0.index t (1 : Fin 2) * 64 + 1 * o.val = o.val; rw [e1]; omega

/-- Window 1's block at point `t`: the rows of the degree column. -/
theorem blk1_apply (c : Dev nD) (t : Fin cfg2.N) (q : Fin 10000) (u : Fin 1) :
    (iblk2 V c 1 t : Vec Ideal S10000x1 .f32) (ix2 q u) = (V c main_v25 : S100000x1.Idx → EReal) (ix2 (rowOf t q) (0 : Fin 1)) := by
  obtain ⟨-, -, e2, e3, -⟩ := idx_facts t
  unfold iblk2
  rw [View.read_apply]
  show V c main_v25 _ = V c main_v25 _
  refine congrArg (V c main_v25) (funext fun a => Fin.ext ?_)
  match a with
  | ⟨0, _⟩ => show win2_1.index t (0 : Fin 2) * 10000 + 1 * q.val = t.val * 10000 + q.val; rw [e2]; omega
  | ⟨1, _⟩ => show win2_1.index t (1 : Fin 2) * 1 + 1 * u.val = 0; rw [e3]; have := u.isLt; omega

/-- Window 2's block at every point: the whole third operand. -/
theorem blk2_apply (c : Dev nD) (t : Fin cfg2.N) (p : Fin 64) (o : Fin 40) :
    (iblk2 V c 2 t : Vec Ideal S64x40 .f32) (ix2 p o) = (V c main_arg5 : S64x40.Idx → EReal) (ix2 p o) := by
  obtain ⟨-, -, -, -, e4, e5, -⟩ := idx_facts t
  unfold iblk2
  rw [View.read_apply]
  show V c main_arg5 _ = V c main_arg5 _
  refine congrArg (V c main_arg5) (funext fun a => Fin.ext ?_)
  match a with
  | ⟨0, _⟩ => show win2_2.index t (0 : Fin 2) * 64 + 1 * p.val = p.val; rw [e4]; omega
  | ⟨1, _⟩ => show win2_2.index t (1 : Fin 2) * 40 + 1 * o.val = o.val; rw [e5]; omega

/-- Entry `(q, o)` of the output's block at point `t` sits at `(10000 t + q, o)` of the result array. -/
theorem emb_out (t : Fin cfg2.N) (q : Fin 10000) (o : Fin 40) :
    ((cfg2.win 3).blk t).view.emb (ix2 q o) = (ix2 (rowOf t q) o : S100000x40.Idx) := by
  obtain ⟨-, -, -, -, -, -, e6, e7⟩ := idx_facts t
  refine funext fun a => Fin.ext ?_
  match a with
  | ⟨0, _⟩ => show win2_3.index t (0 : Fin 2) * 10000 + 1 * q.val = t.val * 10000 + q.val; rw [e6]; omega
  | ⟨1, _⟩ => show win2_3.index t (1 : Fin 2) * 40 + 1 * o.val = o.val; rw [e7]; omega

/-- What the result array ends holding, as one function of the arrays the region is entered with. -/
abbrev G (c : Dev nD) : S100000x40.Idx → EReal := projectCol (V c main_v24) (V c main_v25) (V c main_arg5)

/-- What point `t` writes back is block `t` of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S10000x1) hz, View.ld_unit_zero (S := S10000x64) hz, View.ld_unit_zero (S := S64x40) hz]
  funext j
  obtain ⟨q, o, rfl⟩ : ∃ (q : Fin 10000) (o : Fin 40), j = ix2 q o := ⟨j 0, j 1, eq_ix2 j⟩
  rw [View.read_apply, emb_out t q o]
  refine (pay_apply _ _ _ q o).trans ?_
  show _ = projectCol _ _ _ _
  unfold projectCol
  refine Finset.sum_congr rfl fun c' _ => ?_
  rw [blk0_apply V c t q c', blk1_apply V c t q 0, blk2_apply V c t c' o]

/-- An index of the result array is in point `t`'s block iff each coordinate is in the block's range. -/
theorem mem_blk (t : Fin cfg2.N) (i : S100000x40.Idx) :
    i ∈ ((cfg2.win 3).blk t).view.set ↔ ∀ a : Fin 2, win2_3.index t a * S10000x40.size a ≤ (i a).val ∧ (i a).val < win2_3.index t a * S10000x40.size a + S10000x40.size a := by
  show i ∈ ((View.whole main_v26).slice (win2_3.rect t)).set ↔ _
  rw [View.set_slice_whole, Rect.mem_set_unit]
  exact Iff.rfl

/-- Row `r` of the result is in the block of point `r / 10000`. -/
theorem cover (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 10 := N_2
  have ht : (i 0).val / 10000 < cfg2.N := by rw [hN]; omega
  obtain ⟨-, -, -, -, -, -, e6, e7⟩ := idx_facts ⟨(i 0).val / 10000, ht⟩
  refine ⟨⟨(i 0).val / 10000, ht⟩, flush2_3 _, ?_⟩
  rw [mem_blk]
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ (1 : Fin 2) * 40 ≤ (i 1).val ∧ (i 1).val < win2_3.index ⟨(i 0).val / 10000, ht⟩ (1 : Fin 2) * 40 + 40
    rw [e7]; omega

/-- The result array after the region. -/
theorem final (c : Dev nD) : (dat2 V c).arrAt 3 cfg2.N = G V c :=
  (dat2 V c).arrAt_eq_of_cover 3 (G V c) (fun t _ => flushed_eq V c t) cover

end Cert.KernelIdeal.Region2

end
-- ==== Proof.Region3.lean ====
/-
  Region 3 of the kernel program: the normalisation half of a layer, row block by row block.

  The grid has ten points; point `t` is handed rows `10000 t … 10000 t + 9999` of the edge sums and of the degree
  column, and the whole bias row, and writes back the same rows of the result. On its block the body computes
  `normalizeCol` of the block (`pay_apply`); a block's row `q` is the array's row
  `10000 t + q` (`blk*_apply`, `emb_out`), so what point `t` writes back is block `t` of the same function of the
  whole arrays (`flushed_eq`); the ten blocks cover the result (`cover`), which therefore ends holding that function
  of the arrays the region was entered with (`final`). Everything is stated at any entry contents `V`.
-/
import proofs.«110410_j82197084110895_1_alg».proof.Proof.Gen.KernelIdeal.Frame
import proofs.«110410_j82197084110895_1_alg».proof.Proof.LibGraphLayer
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.GraphLayer

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block, read at entry `(q, o)`. -/
theorem pay_apply (x1 : Vec Ideal S10000x1 .f32) (x0 : Vec Ideal S10000x40 .f32) (x2 : Vec Ideal S1x40 .f32)
    (q : Fin 10000) (o : Fin 40) :
    k3_pay1 x1 x0 x2 (ix2 q o) = x0 (ix2 q o) * Ideal.rsqrt (x1 (ix2 q (0 : Fin 1))) + x2 (ix2 (0 : Fin 1) o) := by
  unfold k3_pay1
  simp only [shapeCast_self]
  exact normalizeBlock_apply (R := 10000) (k := 40) x0 x1 x2 _ _ q o

/-- The printed index maps, decided over the ten points: the row-blocked windows are at block `(t, 0)`, the
    whole-array window at block `(0, 0)`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `q` of block `t` is row `10000 t + q` of the array. -/
def rowOf (t : Fin cfg3.N) (q : Fin 10000) : Fin 100000 :=
  ⟨t.val * 10000 + q.val, by have h : t.val < 10 := lt_of_lt_of_eq t.isLt N_3; have := q.isLt; omega⟩

/-- Window 0's block at point `t`: the rows of the first operand. -/
theorem blk0_apply (c : Dev nD) (t : Fin cfg3.N) (q : Fin 10000) (o : Fin 40) :
    (iblk3 V c 0 t : Vec Ideal S10000x40 .f32) (ix2 q o) = (V c main_v36 : S100000x40.Idx → EReal) (ix2 (rowOf t q) o) := by
  obtain ⟨e0, e1, -⟩ := idx_facts t
  unfold iblk3
  rw [View.read_apply]
  show V c main_v36 _ = V c main_v36 _
  refine congrArg (V c main_v36) (funext fun a => Fin.ext ?_)
  match a with
  | ⟨0, _⟩ => show win3_0.index t (0 : Fin 2) * 10000 + 1 * q.val = t.val * 10000 + q.val; rw [e0]; omega
  | ⟨1, _⟩ => show win3_0.index t (1 : Fin 2) * 40 + 1 * o.val = o.val; rw [e1]; omega

/-- Window 1's block at point `t`: the rows of the degree column. -/
theorem blk1_apply (c : Dev nD) (t : Fin cfg3.N) (q : Fin 10000) (u : Fin 1) :
    (iblk3 V c 1 t : Vec Ideal S10000x1 .f32) (ix2 q u) = (V c main_v37 : S100000x1.Idx → EReal) (ix2 (rowOf t q) (0 : Fin 1)) := by
  obtain ⟨-, -, e2, e3, -⟩ := idx_facts t
  unfold iblk3
  rw [View.read_apply]
  show V c main_v37 _ = V c main_v37 _
  refine congrArg (V c main_v37) (funext fun a => Fin.ext ?_)
  match a with
  | ⟨0, _⟩ => show win3_1.index t (0 : Fin 2) * 10000 + 1 * q.val = t.val * 10000 + q.val; rw [e2]; omega
  | ⟨1, _⟩ => show win3_1.index t (1 : Fin 2) * 1 + 1 * u.val = 0; rw [e3]; have := u.isLt; omega

/-- Window 2's block at every point: the whole third operand. -/
theorem blk2_apply (c : Dev nD) (t : Fin cfg3.N) (p : Fin 1) (o : Fin 40) :
    (iblk3 V c 2 t : Vec Ideal S1x40 .f32) (ix2 p o) = (V c main_v38 : S1x40.Idx → EReal) (ix2 p o) := by
  obtain ⟨-, -, -, -, e4, e5, -⟩ := idx_facts t
  unfold iblk3
  rw [View.read_apply]
  show V c main_v38 _ = V c main_v38 _
  refine congrArg (V c main_v38) (funext fun a => Fin.ext ?_)
  match a with
  | ⟨0, _⟩ => show win3_2.index t (0 : Fin 2) * 1 + 1 * p.val = p.val; rw [e4]; omega
  | ⟨1, _⟩ => show win3_2.index t (1 : Fin 2) * 40 + 1 * o.val = o.val; rw [e5]; omega

/-- Entry `(q, o)` of the output's block at point `t` sits at `(10000 t + q, o)` of the result array. -/
theorem emb_out (t : Fin cfg3.N) (q : Fin 10000) (o : Fin 40) :
    ((cfg3.win 3).blk t).view.emb (ix2 q o) = (ix2 (rowOf t q) o : S100000x40.Idx) := by
  obtain ⟨-, -, -, -, -, -, e6, e7⟩ := idx_facts t
  refine funext fun a => Fin.ext ?_
  match a with
  | ⟨0, _⟩ => show win3_3.index t (0 : Fin 2) * 10000 + 1 * q.val = t.val * 10000 + q.val; rw [e6]; omega
  | ⟨1, _⟩ => show win3_3.index t (1 : Fin 2) * 40 + 1 * o.val = o.val; rw [e7]; omega

/-- What the result array ends holding, as one function of the arrays the region is entered with. -/
abbrev G (c : Dev nD) : S100000x40.Idx → EReal := normalizeCol (V c main_v36) (V c main_v37) (V c main_v38)

/-- What point `t` writes back is block `t` of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S10000x1) hz, View.ld_unit_zero (S := S10000x40) hz, View.ld_unit_zero (S := S1x40) hz]
  funext j
  obtain ⟨q, o, rfl⟩ : ∃ (q : Fin 10000) (o : Fin 40), j = ix2 q o := ⟨j 0, j 1, eq_ix2 j⟩
  rw [View.read_apply, emb_out t q o]
  refine (pay_apply _ _ _ q o).trans ?_
  rw [blk0_apply V c t q o, blk1_apply V c t q 0, blk2_apply V c t 0 o]
  rfl

/-- An index of the result array is in point `t`'s block iff each coordinate is in the block's range. -/
theorem mem_blk (t : Fin cfg3.N) (i : S100000x40.Idx) :
    i ∈ ((cfg3.win 3).blk t).view.set ↔ ∀ a : Fin 2, win3_3.index t a * S10000x40.size a ≤ (i a).val ∧ (i a).val < win3_3.index t a * S10000x40.size a + S10000x40.size a := by
  show i ∈ ((View.whole main_v39).slice (win3_3.rect t)).set ↔ _
  rw [View.set_slice_whole, Rect.mem_set_unit]
  exact Iff.rfl

/-- Row `r` of the result is in the block of point `r / 10000`. -/
theorem cover (i : S100000x40.Idx) :
    ∃ t : Fin cfg3.N, (cfg3.win 3).flush t = true ∧ i ∈ ((cfg3.win 3).blk t).view.set := by
  have hi0 : (i 0).val < 100000 := (i 0).isLt
  have hi1 : (i 1).val < 40 := (i 1).isLt
  have hN : cfg3.N = 10 := N_3
  have ht : (i 0).val / 10000 < cfg3.N := by rw [hN]; omega
  obtain ⟨-, -, -, -, -, -, e6, e7⟩ := idx_facts ⟨(i 0).val / 10000, ht⟩
  refine ⟨⟨(i 0).val / 10000, ht⟩, flush3_3 _, ?_⟩
  rw [mem_blk]
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win3_3.index ⟨(i 0).val / 10000, ht⟩ (1 : Fin 2) * 40 ≤ (i 1).val ∧ (i 1).val < win3_3.index ⟨(i 0).val / 10000, ht⟩ (1 : Fin 2) * 40 + 40
    rw [e7]; omega

/-- The result array after the region. -/
theorem final (c : Dev nD) : (dat3 V c).arrAt 3 cfg3.N = G V c :=
  (dat3 V c).arrAt_eq_of_cover 3 (G V c) (fun t _ => flushed_eq V c t) cover

end Cert.KernelIdeal.Region3

end
-- ==== Proof.Host3.lean ====
/-
  The kernel program's buffers after its third region, when its fourth is entered, and at the end.

  The third region leaves the second layer's projected rows; the host sums them over the edges (`aggregate40`) and
  lays the destination-side degrees out as a column and the second bias as a row; the fourth region normalises and
  adds the bias. The result array ends holding `network` of the seven arguments.
-/
import proofs.«110410_j82197084110895_1_alg».proof.Proof.Gen.KernelIdeal.Frame
import proofs.«110410_j82197084110895_1_alg».proof.Proof.LibGraphLayer
import proofs.«110410_j82197084110895_1_alg».proof.Proof.Glue
import proofs.«110410_j82197084110895_1_alg».proof.Proof.Host2
import proofs.«110410_j82197084110895_1_alg».proof.Proof.Region2
import proofs.«110410_j82197084110895_1_alg».proof.Proof.Region3

set_option maxRecDepth 16384

noncomputable section

open Idealize.ShloMosaic Idealize.ShloMosaic.TcCoe Idealize.SL.Sem Idealize.ShloMosaic.ValueIdx
open Idealize.ShloMosaic.StableHlo

namespace Cert.KernelIdeal.Boundary

open Cert.KernelIdeal Cert.KernelIdeal.Gen Cert.GraphLayer Cert.GraphNet

variable (m : (ℓ : Loc nD τ sig) → Buf (Elt Ideal) ℓ) (ρ : Dev nD → PrngReg) (c : Dev nD)

/-- After the third region: the second layer's projected rows. -/
theorem W10_v26 : W10 m ρ c (Proc.devRef .tc main_v26) = (project (hidden (m ((c : Thread nD τ).loc main_arg0)) (m ((c : Thread nD τ).loc main_arg1)) (m ((c : Thread nD τ).loc main_arg2)) (m ((c : Thread nD τ).loc main_arg3)) (m ((c : Thread nD τ).loc main_arg4))) (degree (m ((c : Thread nD τ).loc main_arg1))) (m ((c : Thread nD τ).loc main_arg5))) := by
  refine (W10_arr m ρ c 3).trans ((Region2.final (V9 m ρ) c).trans ?_)
  show projectCol (W9 m ρ c (Proc.devRef .tc main_v24)) (W9 m ρ c (Proc.devRef .tc main_v25)) (W9 m ρ c (Proc.devRef .tc main_arg5)) = _
  rw [W9_v24, W9_v25, W9_arg5]
  exact projectCol_reshape _ _ _ _

theorem W10_arg1 : W10 m ρ c (Proc.devRef .tc main_arg1) = (m ((c : Thread nD τ).loc main_arg1)) :=
  (W10_of_ne m ρ c main_arg1 (by decide)).trans (W9_arg1 m ρ c)

theorem W10_arg2 : W10 m ρ c (Proc.devRef .tc main_arg2) = (m ((c : Thread nD τ).loc main_arg2)) :=
  (W10_of_ne m ρ c main_arg2 (by decide)).trans (W9_arg2 m ρ c)

theorem W10_arg6 : W10 m ρ c (Proc.devRef .tc main_arg6) = (m ((c : Thread nD τ).loc main_arg6)) :=
  (W10_of_ne m ρ c main_arg6 (by decide)).trans (W9_arg6 m ρ c)

theorem W10_v9 : W10 m ρ c (Proc.devRef .tc main_v9) = (degree (m ((c : Thread nD τ).loc main_arg2))) :=
  (W10_of_ne m ρ c main_v9 (by decide)).trans (W9_v9 m ρ c)

/-- The second layer's sums over the edges. -/
theorem W11_v36 : W11 m ρ c (Proc.devRef .tc main_v36) = aggregate40 (project (hidden (m ((c : Thread nD τ).loc main_arg0)) (m ((c : Thread nD τ).loc main_arg1)) (m ((c : Thread nD τ).loc main_arg2)) (m ((c : Thread nD τ).loc main_arg3)) (m ((c : Thread nD τ).loc main_arg4))) (degree (m ((c : Thread nD τ).loc main_arg1))) (m ((c : Thread nD τ).loc main_arg5))) (m ((c : Thread nD τ).loc main_arg1)) (m ((c : Thread nD τ).loc main_arg2)) := by
  dsimp only [W11, hostOps3]
  after_results_simp
  rw [W10_v26, W10_arg1, W10_arg2]
  rfl

theorem W11_v37 : W11 m ρ c (Proc.devRef .tc main_v37) = shapeCast S100000x1 (degree (m ((c : Thread nD τ).loc main_arg2))) Facts₀.shapeCasts_S100000_S100000x1 := by
  dsimp only [W11, hostOps3]
  after_results_simp
  rw [W10_v9]
  rfl

theorem W11_v38 : W11 m ρ c (Proc.devRef .tc main_v38) = shapeCast S1x40 (m ((c : Thread nD τ).loc main_arg6)) Facts₀.shapeCasts_S40_S1x40 := by
  dsimp only [W11, hostOps3]
  after_results_simp
  rw [W10_arg6]
  rfl

/-- The result array at the end of the program. -/
theorem W12_v39 : W12 m ρ c (Proc.devRef .tc main_v39)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W12_arr m ρ c 3).trans ((Region3.final (V11 m ρ) c).trans ?_)
  show normalizeCol (W11 m ρ c (Proc.devRef .tc main_v36)) (W11 m ρ c (Proc.devRef .tc main_v37)) (W11 m ρ c (Proc.devRef .tc main_v38)) = _
  rw [W11_v36, W11_v37, W11_v38, normalizeCol_reshape]
  rfl

end Cert.KernelIdeal.Boundary

end
-- ==== Proof.Reference.lean ====
/-
  The reference program computes `network`.

  The reference applies, entry by entry, exactly the operations `project` and `normalize` name: it takes the inverse
  square root of the degree vector, lays it out as a column and copies it along the rows (two broadcasts), multiplies,
  contracts with the weights by a `dot_general` (a sum over the shared axis), and for the second half multiplies the
  edge sums by the copied column and adds the bias, a vector laid out as a row and copied down the rows. Each stage is
  read at an index through the generated one-operation lemmas; the index each broadcast reads its operand at is
  written by coordinates (`col_of…`, `row_of…`, `lhs_of…`, `rhs_of…`). The reference counts the two degree vectors
  once per layer: the second count is the first (`degree_again_…`). The sums over the edges are the same terms as
  `aggregate64` / `aggregate40` and are not opened.
-/
import proofs.«110410_j82197084110895_1_alg».proof.Proof.Gen.ReferenceIdeal.Read
import proofs.«110410_j82197084110895_1_alg».proof.Proof.LibGraphLayer
import proofs.«110410_j82197084110895_1_alg».proof.Proof.Glue

noncomputable section

namespace Cert.GraphNet

open Idealize.ShloMosaic Idealize.ShloMosaic.ValueIdx Cert.GraphLayer
open Cert.ReferenceIdeal Cert.ReferenceIdeal.Read

/-! ## Where the broadcasts and the contractions read their operands -/

theorem col_of64 (r : Fin 100000) (c : Fin 64) : idx_main_v11 (idx_main_v12 (ix2 r c)) = ix1 r :=
  funext fun a => Fin.ext (by match a with | ⟨0, _⟩ => rfl)
theorem col_of64' (r : Fin 100000) (c : Fin 64) : idx_main_v26 (idx_main_v27 (ix2 r c)) = ix1 r :=
  funext fun a => Fin.ext (by match a with | ⟨0, _⟩ => rfl)
theorem col_of64'' (r : Fin 100000) (c : Fin 64) : idx_main_v44 (idx_main_v45 (ix2 r c)) = ix1 r :=
  funext fun a => Fin.ext (by match a with | ⟨0, _⟩ => rfl)
theorem col_of40 (r : Fin 100000) (o : Fin 40) : idx_main_v59 (idx_main_v60 (ix2 r o)) = ix1 r :=
  funext fun a => Fin.ext (by match a with | ⟨0, _⟩ => rfl)
theorem row_of64 (r : Fin 100000) (o : Fin 64) : idx_main_v29 (idx_main_v30 (ix2 r o)) = ix1 o :=
  funext fun a => Fin.ext (by match a with | ⟨0, _⟩ => rfl)
theorem row_of40 (r : Fin 100000) (o : Fin 40) : idx_main_v62 (idx_main_v63 (ix2 r o)) = ix1 o :=
  funext fun a => Fin.ext (by match a with | ⟨0, _⟩ => rfl)
theorem lhs_of64 (r : Fin 100000) (o c : Fin 64) : lidx_main_v14 (ix2 r o) c = ix2 r c :=
  funext fun a => Fin.ext (by match a with | ⟨0, _⟩ => rfl | ⟨1, _⟩ => rfl)
theorem rhs_of64 (r : Fin 100000) (o c : Fin 64) : ridx_main_v14 (ix2 r o) c = ix2 c o :=
  funext fun a => Fin.ext (by match a with | ⟨0, _⟩ => rfl | ⟨1, _⟩ => rfl)
theorem lhs_of40 (r : Fin 100000) (o : Fin 40) (c : Fin 64) : lidx_main_v47 (ix2 r o) c = ix2 r c :=
  funext fun a => Fin.ext (by match a with | ⟨0, _⟩ => rfl | ⟨1, _⟩ => rfl)
theorem rhs_of40 (r : Fin 100000) (o : Fin 40) (c : Fin 64) : ridx_main_v47 (ix2 r o) c = ix2 c o :=
  funext fun a => Fin.ext (by match a with | ⟨0, _⟩ => rfl | ⟨1, _⟩ => rfl)

/-! ## The degrees: counted again for the second layer, the same counts -/

theorem degree_out (x1 : Idxs) : val_main_v4 (F := Ideal) x1 = degree x1 := rfl
theorem degree_in (x2 : Idxs) : val_main_v9 (F := Ideal) x2 = degree x2 := rfl
theorem degree_again_out (x1 : Idxs) : val_main_v37 (F := Ideal) x1 = degree x1 := rfl
theorem degree_again_in (x2 : Idxs) : val_main_v42 (F := Ideal) x2 = degree x2 := rfl

/-! ## The first layer -/

theorem projected0 (x0 : Mat 100000 64) (x1 : Idxs) (x3 : Mat 64 64) :
    val_main_v14 (F := Ideal) x0 x1 x3 = project x0 (degree x1) x3 := by
  rw [← degree_out]
  funext i
  obtain ⟨r, o, rfl⟩ : ∃ (r : Fin 100000) (o : Fin 64), i = ix2 r o := ⟨i 0, i 1, eq_ix2 i⟩
  rw [val_main_v14_apply, project_apply]
  refine Finset.sum_congr rfl fun c _ => ?_
  rw [val_main_v13_apply, val_main_v12_apply, val_main_v11_apply, val_main_v10_apply, lhs_of64, rhs_of64, col_of64]
  simp only [Ideal.mulf_def, Ideal.hostUnary_rsqrt_def]

theorem summed0 (x0 : Mat 100000 64) (x1 x2 : Idxs) (x3 : Mat 64 64) :
    val_main_v24 (F := Ideal) x0 x1 x2 x3 = aggregate64 (val_main_v14 (F := Ideal) x0 x1 x3) x1 x2 := rfl

theorem hidden0 (x0 : Mat 100000 64) (x1 x2 : Idxs) (x3 : Mat 64 64) (x4 : Vect 64) :
    val_main_v32 (F := Ideal) x0 x1 x2 x3 x4 = hidden x0 x1 x2 x3 x4 := by
  unfold hidden
  rw [← projected0, ← summed0, ← degree_in]
  funext i
  obtain ⟨r, o, rfl⟩ : ∃ (r : Fin 100000) (o : Fin 64), i = ix2 r o := ⟨i 0, i 1, eq_ix2 i⟩
  rw [rectify_apply, normalize_apply, val_main_v32_apply, val_main_v31_apply, val_main_v28_apply, val_main_v27_apply,
    val_main_v26_apply, val_main_v25_apply, val_main_v30_apply, val_main_v29_apply, val_main_call2_v0_apply,
    val_main_call2_cst_apply, col_of64', row_of64]
  simp only [Ideal.maximumf_def, Ideal.addf_def, Ideal.mulf_def, Ideal.hostUnary_rsqrt_def, Ideal.ofBits_def]

/-! ## The second layer -/

theorem projected1 (x0 : Mat 100000 64) (x1 x2 : Idxs) (x3 : Mat 64 64) (x4 : Vect 64) (x5 : Mat 64 40) :
    val_main_v47 (F := Ideal) x0 x1 x2 x3 x4 x5 = project (hidden x0 x1 x2 x3 x4) (degree x1) x5 := by
  rw [← hidden0, ← degree_again_out]
  funext i
  obtain ⟨r, o, rfl⟩ : ∃ (r : Fin 100000) (o : Fin 40), i = ix2 r o := ⟨i 0, i 1, eq_ix2 i⟩
  rw [val_main_v47_apply, project_apply]
  refine Finset.sum_congr rfl fun c _ => ?_
  rw [val_main_v46_apply, val_main_v45_apply, val_main_v44_apply, val_main_v43_apply, lhs_of40, rhs_of40, col_of64'']
  simp only [Ideal.mulf_def, Ideal.hostUnary_rsqrt_def]

theorem summed1 (x0 : Mat 100000 64) (x1 x2 : Idxs) (x3 : Mat 64 64) (x4 : Vect 64) (x5 : Mat 64 40) :
    val_main_v57 (F := Ideal) x0 x1 x2 x3 x4 x5 = aggregate40 (val_main_v47 (F := Ideal) x0 x1 x2 x3 x4 x5) x1 x2 := rfl

/-- The reference's result is `network` of its arguments. -/
theorem reference_eq (x0 : Mat 100000 64) (x1 x2 : Idxs) (x3 : Mat 64 64) (x4 : Vect 64) (x5 : Mat 64 40) (x6 : Vect 40) :
    val_main_v64 (F := Ideal) x0 x1 x2 x3 x4 x5 x6 = network x0 x1 x2 x3 x4 x5 x6 := by
  unfold network
  rw [← projected1, ← summed1, ← degree_again_in]
  funext i
  obtain ⟨r, o, rfl⟩ : ∃ (r : Fin 100000) (o : Fin 40), i = ix2 r o := ⟨i 0, i 1, eq_ix2 i⟩
  rw [normalize_apply, val_main_v64_apply, val_main_v61_apply, val_main_v60_apply, val_main_v59_apply, val_main_v58_apply,
    val_main_v63_apply, val_main_v62_apply, col_of40, row_of40]
  simp only [Ideal.addf_def, Ideal.mulf_def, Ideal.hostUnary_rsqrt_def]

end Cert.GraphNet

end
-- ==== Proof.lean ====
/-
  A two-layer graph convolution, kernel program against reference: the claim.

  Both programs compute, per layer, D_in^(-1/2) A D_out^(-1/2) h W + b over a graph given as edge lists: the node
  degrees are counted and floored at one, each node's row is multiplied by its out-degree's inverse square root and by
  the weights, the rows are copied along the edges and added up per destination node, and the sums are multiplied by
  the in-degree's inverse square root and the bias is added; the first layer ends with the maximum with zero.
  The kernel program does the two multiplications of each layer in row-blocked regions (blocks of 10000 nodes,
  the products on the matrix unit with operands narrowed to bf16) and everything along the edges on the host; the
  reference does everything on the host. Over the extended reals a narrowing is the identity and a block's rows are the
  array's rows, so both results are the one function `Cert.GraphNet.network` of the seven arguments — no law of
  arithmetic is needed, only that each program's operations, read entry by entry, are `project` and `normalize`.
    * the kernel program: `Region0` … `Region3` (what each region leaves, at any entry contents), `Host0` … `Host3`
      (the buffers at each boundary between host stretches and regions), `KernelRun` (the run with the result named);
    * the reference: `Reference` (its generated run, read one operation at a time);
    * the idealized kernel program is the printed one read over the extended reals: nothing was rewritten.
-/
import proofs.«110410_j82197084110895_1_alg».proof.Defs
import proofs.«110410_j82197084110895_1_alg».proof.Proof.Gen.Kernel
import proofs.«110410_j82197084110895_1_alg».proof.Proof.Gen.Kernel.Skeleton
import proofs.«110410_j82197084110895_1_alg».proof.Proof.Gen.Kernel.Launch
import proofs.«110410_j82197084110895_1_alg».proof.Proof.Gen.Kernel.Points
import proofs.«110410_j82197084110895_1_alg».proof.Proof.Gen.Kernel.Frame
import proofs.«110410_j82197084110895_1_alg».proof.Proof.Gen.KernelIdeal
import proofs.«110410_j82197084110895_1_alg».proof.Proof.Gen.KernelIdeal.Skeleton
import proofs.«110410_j82197084110895_1_alg».proof.Proof.Gen.KernelIdeal.Launch
import proofs.«110410_j82197084110895_1_alg».proof.Proof.Gen.KernelIdeal.Points
import proofs.«110410_j82197084110895_1_alg».proof.Proof.Gen.KernelIdeal.Frame
import proofs.«110410_j82197084110895_1_alg».proof.Proof.Gen.ReferenceIdeal
import proofs.«110410_j82197084110895_1_alg».proof.Proof.Gen.ReferenceIdeal.Run
import proofs.«110410_j82197084110895_1_alg».proof.Proof.Gen.ReferenceIdeal.Read
import proofs.«110410_j82197084110895_1_alg».proof.Proof.Gen.Pre_finite_inputs
import proofs.«110410_j82197084110895_1_alg».proof.Proof.KernelRun
import proofs.«110410_j82197084110895_1_alg».proof.Proof.Host3
import proofs.«110410_j82197084110895_1_alg».proof.Proof.Reference
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_ideal : Cert.frame_KernelIdeal := fun m ρ _ => Cert.KernelIdeal.Gen.frame m ρ

/-- The reference is a straight line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel program is the printed text itself: no operation was rewritten. -/
theorem preserves : Cert.preserves_Kernel_KernelIdeal := trivial

/-- From memories agreeing on the arguments both programs end with `network` of the arguments in their result arrays. -/
theorem algebraic : Cert.algebraic_KernelIdeal_ReferenceIdeal := by
  intro m ρ m' ρ' _ hagree
  refine ⟨fun c => Cert.GraphNet.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Boundary.W12_v39 m ρ c), (h c).2⟩)
      (Cert.KernelIdeal.Named.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v64_eq, Cert.GraphNet.reference_eq, (hagree c).1, (hagree c).2.1,
      (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
